-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x3x256 : Shape := ⟨3, ![1, 3, 256]⟩
abbrev S1x3x8192 : Shape := ⟨3, ![1, 3, 8192]⟩
abbrev S1x1x256 : Shape := ⟨3, ![1, 1, 256]⟩
abbrev S1x1x8192 : Shape := ⟨3, ![1, 1, 8192]⟩
abbrev S1x8192 : Shape := ⟨2, ![1, 8192]⟩
abbrev S3x256 : Shape := ⟨2, ![3, 256]⟩
abbrev S3x8192 : Shape := ⟨2, ![3, 8192]⟩
abbrev S256 : Shape := ⟨1, ![256]⟩
abbrev S8192 : Shape := ⟨1, ![8192]⟩
abbrev S256x8192 : Shape := ⟨2, ![256, 8192]⟩
abbrev S256x1 : Shape := ⟨2, ![256, 1]⟩
abbrev S1x256 : Shape := ⟨2, ![1, 256]⟩
abbrev S4x8192 : Shape := ⟨2, ![4, 8192]⟩
abbrev S_ : Shape := ⟨0, ![]⟩
abbrev S4 : Shape := ⟨1, ![4]⟩

abbrev nBuf : Space → Nat
  | .hbm => 26
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x1x8192, .f32⟩
  | .hbm, ⟨5, _⟩ => ⟨S4x1x8192, .f32⟩
  | .hbm, ⟨6, _⟩ => ⟨S4x8192, .f32⟩
  | .hbm, ⟨7, _⟩ => ⟨S4x8192, .f32⟩
  | .hbm, ⟨8, _⟩ => ⟨S_, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x1x256, .f32⟩
  | .local _ .vmem, ⟨5, _⟩ => ⟨S1x1x256, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S3x256_S256 : S3x256.Reduces [0] S256
  reduces_S3x8192_S8192 : S3x8192.Reduces [0] S8192
  shapeCasts_S256_S256x1 : S256.ShapeCasts S256x1
  shapeCasts_S8192_S1x8192 : S8192.ShapeCasts S1x8192
  broadcasts_S256x1_S256x8192 : S256x1.Broadcasts S256x8192
  broadcasts_S1x8192_S256x8192 : S1x8192.Broadcasts S256x8192
  reduces_S256x8192_S256 : S256x8192.Reduces [1] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reduces_S256x8192_S8192 : S256x8192.Reduces [0] S8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S3x256_S3x8192_S256x8192_0_0_1_1_n_n_wf : DotDims.WF S3x256 S3x8192 S256x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S4x3x8192.size a
  hwx0_0 : ∀ i : grid0.Coords, EltTy.bits .f32 = 32 ∨ (Rect.block (s := S4x3x8192) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x8192.size a
  hwx0_2 : ∀ i : grid0.Coords, EltTy.bits .f32 = 32 ∨ (Rect.block (s := S4x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S3x256_S3x8192_S256x8192_0_0_1_1_n_n : DotDims S3x256 S3x8192 S256x8192 where
  lhsContracting := [0]
  rhsContracting := [0]
  lhsNonContracting := [1]
  rhsNonContracting := [1]
  lhsBatch := []
  rhsBatch := []
  wf := dot_S3x256_S3x8192_S256x8192_0_0_1_1_n_n_wf

abbrev win0_0 : Pipeline.Window sig grid0 :=
  Pipeline.Window.ofSpec (Memref.whole main_v0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics both programs compute, stated over plain arrays of extended reals.

  For two clouds of 8192 points in three coordinates per batch entry, `P` and `Q` of shape [4, 8192, 3], the
  squared distance between point `n` of `P` and point `m` of `Q` in batch entry `b` is spelled
      dist b n m = (|P_n|² + |Q_m|²) − 2·⟨P_n, Q_m⟩,
  each of the three terms a sum over the three coordinates. The two nearest-neighbour tables are
      rowMin b n = min over m of dist b n m      colMin b m = min over n of dist b n m,
  each minimum folded from +∞, and the result is the mean over the batch of (mean of rowMin) + (mean of colMin).

  A minimum over the extended reals is carried by its universal property: `x ≤ min` of a family exactly when `x` is
  below the starting value and below every member. That is what lets a minimum accumulated tile by tile be compared
  with one taken over the whole axis at once.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The lower bounds of a minimum folded over a whole finite index type from a starting value: those below the start
    and below every member. -/
theorem le_fold_min_univ {α : Type*} [LinearOrder α] {n : ℕ} (init : α) (f : Fin n → α) (x : α) :
    x ≤ (Finset.univ : Finset (Fin n)).fold min init f ↔ x ≤ init ∧ ∀ k, x ≤ f k := by
  rw [Finset.le_fold_min]
  exact and_congr Iff.rfl ⟨fun h k => h k (Finset.mem_univ k), fun h k _ => h k⟩

/-- The starting value of every minimum: the word of +∞ (never evaluated: both programs write the same word). -/
abbrev inf32 : EReal := Ideal.ofBits .f32 0x7F800000#32
/-- The factor in front of the inner product: the word of 2.0 (never evaluated either). -/
abbrev two32 : EReal := Ideal.ofBits .f32 0x40000000#32

abbrev Cloud : Type := (⟨3, ![4, 8192, 3]⟩ : Shape).Idx → EReal
abbrev Table : Type := (⟨2, ![4, 8192]⟩ : Shape).Idx → EReal

/-- The squared length of point `n` of batch entry `b`: the sum of its three squared coordinates. -/
def sq (P : Cloud) (b : Fin 4) (n : Fin 8192) : EReal := ∑ k : Fin 3, P (ix3 b n k) * P (ix3 b n k)

/-- The inner product of point `n` of `P` and point `m` of `Q`. -/
def inner (P Q : Cloud) (b : Fin 4) (n m : Fin 8192) : EReal := ∑ k : Fin 3, P (ix3 b n k) * Q (ix3 b m k)

/-- The squared distance, as both programs spell it. -/
def dist (P Q : Cloud) (b : Fin 4) (n m : Fin 8192) : EReal := (sq P b n + sq Q b m) - two32 * inner P Q b n m

/-- The squared distance from point `n` of `P` to its nearest point of `Q`. -/
def rowMinAt (P Q : Cloud) (b : Fin 4) (n : Fin 8192) : EReal :=
  (Finset.univ : Finset (Fin 8192)).fold min inf32 fun m => dist P Q b n m

/-- The squared distance from point `m` of `Q` to its nearest point of `P`. -/
def colMinAt (P Q : Cloud) (b : Fin 4) (m : Fin 8192) : EReal :=
  (Finset.univ : Finset (Fin 8192)).fold min inf32 fun n => dist P Q b n m

/-- The two nearest-neighbour tables, [4, 8192] each. -/
def rowMin (P Q : Cloud) : Table := fun i => rowMinAt P Q ⟨(i 0).val, (i 0).isLt⟩ ⟨(i 1).val, (i 1).isLt⟩
def colMin (P Q : Cloud) : Table := fun i => colMinAt P Q ⟨(i 0).val, (i 0).isLt⟩ ⟨(i 1).val, (i 1).isLt⟩

/-- A value whose lower bounds are exactly those of the column minimum IS the column minimum. -/
theorem eq_colMinAt_of_le_iff (P Q : Cloud) (b : Fin 4) (m : Fin 8192) (v : EReal)
    (h : ∀ x : EReal, x ≤ v ↔ x ≤ inf32 ∧ ∀ n : Fin 8192, x ≤ dist P Q b n m) : v = colMinAt P Q b m :=
  eq_of_forall_le_iff fun x => (h x).trans (le_fold_min_univ inf32 _ x).symm

/-- The points below the end of tile `j` (256 points to a tile) are those below its start together with the tile's own. -/
theorem forall_lt_next_tile (d : Fin 8192 → Prop) (j : ℕ) (hj : (j + 1) * 256 ≤ 8192) :
    (∀ p : Fin 8192, p.val < (j + 1) * 256 → d p)
      ↔ (∀ p : Fin 8192, p.val < j * 256 → d p)
        ∧ ∀ r : Fin 256, d ⟨j * 256 + r.val, by have := r.isLt; omega⟩ := by
  constructor
  · intro h
    exact ⟨fun p hp => h p (by omega), fun r => h _ (by have := r.isLt; show j * 256 + r.val < (j + 1) * 256; omega)⟩
  · rintro ⟨h1, h2⟩ p hp
    by_cases hlt : p.val < j * 256
    · exact h1 p hlt
    · have e : p = ⟨j * 256 + (p.val - j * 256), by omega⟩ := Fin.ext (by show p.val = j * 256 + (p.val - j * 256); omega)
      exact (congrArg d e).mpr (h2 ⟨p.val - j * 256, by omega⟩)

section Tail

variable {F : FTy → Type} [FloatOps F]

/-- What both programs do with the two tables: each table's rows are averaged (a sum divided by 8192.0), the row
    table's averages are multiplied by 1.0 and added to the column table's, and the four sums are averaged (a sum
    divided by 4.0). Kept as one closed term: nothing about it is ever computed, it is only applied to equal tables. -/
def tail (hR : (⟨2, ![4, 8192]⟩ : Shape).ReducesTo [1] ⟨1, ![4]⟩) (h0 : 0 < (⟨0, ![]⟩ : Shape).numel)
    (hb : (⟨0, ![]⟩ : Shape).BroadcastsInDim ⟨1, ![4]⟩ (![] : Fin 0 → Fin 1))
    (hR0 : (⟨1, ![4]⟩ : Shape).ReducesTo [0] ⟨0, ![]⟩)
    (R C : FVec F ⟨2, ![4, 8192]⟩ .f32) : FVec F ⟨0, ![]⟩ .f32 :=
  Host.divf
    (Host.reduceAdd
      (addf
        (mulf (broadcastInDim ⟨1, ![4]⟩ ![] hb (constant ⟨0, ![]⟩ .f32 0x3F800000#32))
          (Host.divf (Host.reduceAdd R (constant ⟨0, ![]⟩ .f32 0x00000000#32) hR h0)
            (broadcastInDim ⟨1, ![4]⟩ ![] hb (constant ⟨0, ![]⟩ .f32 0x46000000#32))))
        (Host.divf (Host.reduceAdd C (constant ⟨0, ![]⟩ .f32 0x00000000#32) hR h0)
          (broadcastInDim ⟨1, ![4]⟩ ![] hb (constant ⟨0, ![]⟩ .f32 0x46000000#32))))
      (constant ⟨0, ![]⟩ .f32 0x00000000#32) hR0 h0)
    (constant ⟨0, ![]⟩ .f32 0x40800000#32)

end Tail

end Cert.Chamfer

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.Payload.lean ====
/-
  The kernel body's arithmetic, read at an index.

  At one grid point the body holds a tile `a` of 256 points of the first cloud and the whole second cloud `g` of the
  batch entry, both with the three coordinates on the leading axis ([1, 3, 256] and [1, 3, 8192]). It forms the
  256 × 8192 table of squared distances
      tile a g r m = (Σ_k a[k,r]² + Σ_k g[k,m]²) − 2·Σ_k a[k,r]·g[k,m],
  takes each row's minimum over m (stored as the tile's part of the row table), and each column's minimum over the
  tile's 256 rows, which it folds into the running column minimum held in the second output's block.
-/
import proofs.«163247_j76802605187598_2_alg».proof.Proof.Gen.KernelIdeal.Skeleton
import proofs.«163247_j76802605187598_2_alg».proof.Proof.Spec
import proofs.«163247_j76802605187598_2_alg».proof.Proof.LibColumnBroadcast
import proofs.«163247_j76802605187598_2_alg».proof.Proof.LibKeepdimsColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Chamfer.Payload

open Idealize.ShloMosaic Idealize.ShloMosaic.ValueIdx Cert.KernelIdeal Cert.KernelIdeal.Gen Cert.Chamfer

/-- The squared distance between row `r` of the tile and point `m` of the resident cloud. -/
def tile (a : Vec Ideal S1x3x256 .f32) (g : Vec Ideal S1x3x8192 .f32) (r : Fin 256) (m : Fin 8192) : EReal :=
  ((∑ k : Fin 3, a (ix3 (0 : Fin 1) k r) * a (ix3 (0 : Fin 1) k r))
      + ∑ k : Fin 3, g (ix3 (0 : Fin 1) k m) * g (ix3 (0 : Fin 1) k m))
    - two32 * ∑ k : Fin 3, a (ix3 (0 : Fin 1) k r) * g (ix3 (0 : Fin 1) k m)

/-- A sum down the three rows of a [3, n] array, kept as a vector of extent n, read at `c`. -/
theorem colSum_apply {n : ℕ} (v : FVec Ideal ⟨2, ![3, n]⟩ .f32)
    (h : (⟨2, ![3, n]⟩ : Shape).Reduces [0] ⟨1, ![n]⟩) (hφ : FKind.Formats .f32)
    (hacc : (0x00000000#32 : BitVec 32) = 0x00000000#32) (c : Fin n) :
    multiReduction (F := Ideal) .add [0] ⟨1, ![n]⟩ v 0x00000000#32 h hφ hacc (ix1 c) = ∑ k : Fin 3, v (ix2 k c) := by
  refine (Ideal.multiReduction_add_single v 0x00000000#32 h hφ hacc (ix1 c)).trans ?_
  refine Finset.sum_congr rfl fun k _ => congrArg v (funext fun a => Fin.ext ?_)
  match a with
  | ⟨0, _⟩ => rfl
  | ⟨1, _⟩ => rfl

/-- The minimum along the rows of an [a, b] array from a starting word, read at row `r`: the fold of `min` over the
    row's entries. -/
theorem rowMin_apply {a b : ℕ} (v : FVec Ideal ⟨2, ![a, b]⟩ .f32)
    (h : (⟨2, ![a, b]⟩ : Shape).Reduces [1] ⟨1, ![a]⟩) (hφ : FKind.Formats .f32)
    (hacc : (0x7F800000#32 : BitVec 32) = 0x7F800000#32) (r : Fin a) :
    multiReduction (F := Ideal) .minimumf [1] ⟨1, ![a]⟩ v 0x7F800000#32 h hφ hacc (ix1 r)
      = (Finset.univ : Finset (Fin b)).fold min inf32 fun m => v (ix2 r m) := by
  refine (multiReduction_minimumf_eq_fold v 0x7F800000#32 h hφ hacc (ix1 r)).trans ?_
  refine (h.fold_filter_drop_single _ _ v (ix1 r)).trans ?_
  refine congrArg (fun f => (Finset.univ : Finset (Fin b)).fold min inf32 f) (funext fun m => ?_)
  refine congrArg v (funext fun ax => Fin.ext ?_)
  match ax with
  | ⟨0, _⟩ => rfl
  | ⟨1, _⟩ => rfl

/-- The minimum down the columns of an [a, b] array from a starting word, read at column `c`. -/
theorem colMin_apply {a b : ℕ} (v : FVec Ideal ⟨2, ![a, b]⟩ .f32)
    (h : (⟨2, ![a, b]⟩ : Shape).Reduces [0] ⟨1, ![b]⟩) (hφ : FKind.Formats .f32)
    (hacc : (0x7F800000#32 : BitVec 32) = 0x7F800000#32) (c : Fin b) :
    multiReduction (F := Ideal) .minimumf [0] ⟨1, ![b]⟩ v 0x7F800000#32 h hφ hacc (ix1 c)
      = (Finset.univ : Finset (Fin a)).fold min inf32 fun r => v (ix2 r c) := by
  refine (multiReduction_minimumf_eq_fold v 0x7F800000#32 h hφ hacc (ix1 c)).trans ?_
  refine (h.fold_filter_drop_single _ _ v (ix1 c)).trans ?_
  refine congrArg (fun f => (Finset.univ : Finset (Fin a)).fold min inf32 f) (funext fun r => ?_)
  refine congrArg v (funext fun ax => Fin.ext ?_)
  match ax with
  | ⟨0, _⟩ => rfl
  | ⟨1, _⟩ => rfl

theorem lhs_coord0 (j : S256x8192.Idx) (q : dot_S3x256_S3x8192_S256x8192_0_0_1_1_n_n.contr.Idx) :
    (dot_S3x256_S3x8192_S256x8192_0_0_1_1_n_n.lhsIdx j q 0).val = (q ⟨0, by decide⟩).val :=
  dot_S3x256_S3x8192_S256x8192_0_0_1_1_n_n.lhsIdx_val_of_single rfl j q
theorem lhs_coord1 (j : S256x8192.Idx) (q : dot_S3x256_S3x8192_S256x8192_0_0_1_1_n_n.contr.Idx) :
    (dot_S3x256_S3x8192_S256x8192_0_0_1_1_n_n.lhsIdx j q 1).val = (j 0).val := by
  unfold DotDims.lhsIdx
  rw [dif_neg (show ¬(1 : Fin S3x256.rank) ∈ dot_S3x256_S3x8192_S256x8192_0_0_1_1_n_n.lhsBatch by decide),
    dif_pos (show (1 : Fin S3x256.rank) ∈ dot_S3x256_S3x8192_S256x8192_0_0_1_1_n_n.lhsNonContracting by decide)]
  rfl
theorem rhs_coord0 (j : S256x8192.Idx) (q : dot_S3x256_S3x8192_S256x8192_0_0_1_1_n_n.contr.Idx) :
    (dot_S3x256_S3x8192_S256x8192_0_0_1_1_n_n.rhsIdx j q 0).val = (q ⟨0, by decide⟩).val :=
  dot_S3x256_S3x8192_S256x8192_0_0_1_1_n_n.rhsIdx_val_of_single rfl j q
theorem rhs_coord1 (j : S256x8192.Idx) (q : dot_S3x256_S3x8192_S256x8192_0_0_1_1_n_n.contr.Idx) :
    (dot_S3x256_S3x8192_S256x8192_0_0_1_1_n_n.rhsIdx j q 1).val = (j 1).val := by
  unfold DotDims.rhsIdx
  rw [dif_neg (show ¬(1 : Fin S3x8192.rank) ∈ dot_S3x256_S3x8192_S256x8192_0_0_1_1_n_n.rhsBatch by decide),
    dif_pos (show (1 : Fin S3x8192.rank) ∈ dot_S3x256_S3x8192_S256x8192_0_0_1_1_n_n.rhsNonContracting by decide)]
  rfl

/-- The body's matrix product contracts the LEADING axis of both operands (the three coordinates): at (r, m) it is
    the sum over k of the first operand at (k, r) times the second at (k, m). -/
theorem product_apply (v4 : FVec Ideal S3x256 .f32) (v6 : FVec Ideal S3x8192 .f32) (r : Fin 256) (m : Fin 8192) :
    matmul dot_S3x256_S3x8192_S256x8192_0_0_1_1_n_n (some .fp32) v4 v6 (constant S256x8192 .f32 0x00000000#32) (ix2 r m)
      = ∑ k : Fin 3, v4 (ix2 k r) * v6 (ix2 k m) := by
  simp only [matmul]
  rw [Ideal.matmul_constant_zero_apply,
    ← Equiv.sum_comp (ValueIdx.contrEquiv1 dot_S3x256_S3x8192_S256x8192_0_0_1_1_n_n 3 rfl rfl).symm]
  refine Finset.sum_congr rfl fun k _ => ?_
  have hk := ValueIdx.contrEquiv1_symm_val dot_S3x256_S3x8192_S256x8192_0_0_1_1_n_n 3 rfl rfl k
  have el : dot_S3x256_S3x8192_S256x8192_0_0_1_1_n_n.lhsIdx (ix2 r m)
      ((ValueIdx.contrEquiv1 dot_S3x256_S3x8192_S256x8192_0_0_1_1_n_n 3 rfl rfl).symm k) = ix2 k r :=
    funext fun a => Fin.ext (by
      match a with
      | ⟨0, _⟩ => exact (lhs_coord0 _ _).trans hk
      | ⟨1, _⟩ => exact lhs_coord1 _ _)
  have er : dot_S3x256_S3x8192_S256x8192_0_0_1_1_n_n.rhsIdx (ix2 r m)
      ((ValueIdx.contrEquiv1 dot_S3x256_S3x8192_S256x8192_0_0_1_1_n_n 3 rfl rfl).symm k) = ix2 k m :=
    funext fun a => Fin.ext (by
      match a with
      | ⟨0, _⟩ => exact (rhs_coord0 _ _).trans hk
      | ⟨1, _⟩ => exact rhs_coord1 _ _)
  rw [el, er]

/-- The table of squared distances the body forms, at (r, m). -/
theorem table_apply (a : Vec Ideal S1x3x256 .f32) (g : Vec Ideal S1x3x8192 .f32) (r : Fin 256) (m : Fin 8192) :
    k0_pay2 a g (ix2 r m) = tile a g r m := by
  unfold k0_pay2 tile
  dsimp only
  rw [subf_apply, addf_apply, mulf_apply, broadcast_apply, broadcastTo_a1_ab_apply, broadcastTo_1b_ab_apply,
    Cert.LibKeepdims.shapeCast_a_a1_apply, shapeCast_a_1a_apply, colSum_apply, colSum_apply, product_apply]
  simp only [mulf_apply, shapeCast_1ab_ab_apply]
  rfl

/-- What the body stores in the row table's block: at row `r` of the tile, the least squared distance to a point of the
    resident cloud. -/
theorem rowPiece_apply (a : Vec Ideal S1x3x256 .f32) (g : Vec Ideal S1x3x8192 .f32) (u v : Fin 1) (r : Fin 256) :
    k0_pay3 a g (ix3 u v r) = (Finset.univ : Finset (Fin 8192)).fold min inf32 fun m => tile a g r m := by
  unfold k0_pay3
  dsimp only
  refine (shapeCast_ab_1ab_apply _ _ u v r).trans ?_
  refine (shapeCast_a_1a_apply _ _ v r).trans ?_
  refine (rowMin_apply _ _ _ _ r).trans ?_
  exact congrArg (fun f => (Finset.univ : Finset (Fin 8192)).fold min inf32 f) (funext fun m => table_apply a g r m)

/-- What the body stores in the column table's block, given what the block held (`acc`): at point `m` of the resident
    cloud, the smaller of what was there and the least squared distance to a row of this tile. -/
theorem colPiece_apply (a : Vec Ideal S1x3x256 .f32) (g : Vec Ideal S1x3x8192 .f32) (acc : Vec Ideal S1x1x8192 .f32)
    (u v : Fin 1) (m : Fin 8192) :
    k0_pay4 a g acc (ix3 u v m)
      = min (acc (ix3 (0 : Fin 1) v m)) ((Finset.univ : Finset (Fin 256)).fold min inf32 fun r => tile a g r m) := by
  unfold k0_pay4
  dsimp only
  refine (shapeCast_ab_1ab_apply _ _ u v m).trans ?_
  refine (minimumf_apply _ _ _).trans (congrArg₂ min ?_ ?_)
  · exact shapeCast_1ab_ab_apply _ _ v m
  · refine (shapeCast_a_1a_apply _ _ v m).trans ?_
    refine (colMin_apply _ _ _ _ m).trans ?_
    exact congrArg (fun f => (Finset.univ : Finset (Fin 256)).fold min inf32 f) (funext fun r => table_apply a g r m)

/-- The block the body writes before the first tile of a batch entry: +∞ everywhere. -/
theorem reset_apply (u v : Fin 1) (m : Fin 8192) : k0_pay1 (F := Ideal) (ix3 u v m) = inf32 := by
  unfold k0_pay1
  exact shapeCast_ab_1ab_apply _ _ u v m

end Cert.Chamfer.Payload

end
-- ==== Proof.Pieces.lean ====
/-
  What one run of the kernel body leaves in its two output blocks, as values.

  The body has two control cases. At the first tile of a batch entry it first overwrites the column table's block
  with +∞; at every other tile it does not. In both cases it then stores, in the row table's block, each tile row's
  minimum, and in the column table's block the minimum of what the block held and each column's minimum over the
  tile. So after a point the row block is one function of the point's two input blocks, and the column block is
  that point's fold step applied to +∞ (first tile) or to what the previous point left (later tiles).
-/
import proofs.«163247_j76802605187598_2_alg».proof.Proof.Gen.KernelIdeal.Frame
import Idealize.ShloMosaic.Lib.Pipeline.Value
import Idealize.ShloMosaic.Lib.Tactic

noncomputable section

namespace Cert.Chamfer.Pieces

open Idealize.ShloMosaic Idealize.ShloMosaic.TcCoe Idealize.SL.Sem
open Idealize.ShloMosaic.Pipeline (Dat)
open Cert.KernelIdeal Cert.KernelIdeal.Gen

variable {F : FTy → Type} [FloatOps F]

theorem zero3 : (![0, 0, 0] : Fin 3 → Nat) = fun _ => 0 := funext fun a => by fin_cases a <;> rfl

/-- First tile of a batch entry: the row block is the tile rows' minima. -/
theorem first_row (c : Dev nD) (i : grid0.Coords) (arg2 : Memref sig .tc .vmem S1x3x256 .f32) (harg2 : arg2.IsWhole) (arg3 : Memref sig .tc .vmem S1x3x8192 .f32) (harg3 : arg3.IsWhole) (arg4 : Memref sig .tc .vmem S1x1x256 .f32) (harg4 : arg4.IsWhole) (arg5 : Memref sig .tc .vmem S1x1x8192 .f32) (harg5 : arg5.IsWhole) (hc0 : cond0_0 i)
    (x0 : Vec F S1x3x256 .f32) (x1 : Vec F S1x3x8192 .f32) :
    out0_A_2 c i arg2 harg2 arg3 harg3 arg4 harg4 arg5 harg5 hc0 x0 x1 = k0_pay3 x0 x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero zero3]
  simp only [View.readAt_eq_ld, harg2.read_unread, harg3.read_unread, View.ld_unit_zero (S := S1x3x256) zero3,
    View.ld_unit_zero (S := S1x3x8192) zero3]

/-- First tile of a batch entry: the column block is the fold step applied to the +∞ block just written. -/
theorem first_col (c : Dev nD) (i : grid0.Coords) (arg2 : Memref sig .tc .vmem S1x3x256 .f32) (harg2 : arg2.IsWhole) (arg3 : Memref sig .tc .vmem S1x3x8192 .f32) (harg3 : arg3.IsWhole) (arg4 : Memref sig .tc .vmem S1x1x256 .f32) (harg4 : arg4.IsWhole) (arg5 : Memref sig .tc .vmem S1x1x8192 .f32) (harg5 : arg5.IsWhole) (hc0 : cond0_0 i)
    (x0 : Vec F S1x3x256 .f32) (x1 : Vec F S1x3x8192 .f32) :
    out0_A_3 c i arg2 harg2 arg3 harg3 arg4 harg4 arg5 harg5 hc0 x0 x1 = k0_pay4 x0 x1 (k0_pay1 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x8192) zero3, View.readCov_unit_zero (S := S1x1x8192) _ zero3]
  simp only [View.readAt_eq_ld, harg2.read_unread, harg3.read_unread, View.ld_unit_zero (S := S1x3x256) zero3,
    View.ld_unit_zero (S := S1x3x8192) zero3]

/-- A later tile: the row block is again the tile rows' minima. -/
theorem later_row (c : Dev nD) (i : grid0.Coords) (arg2 : Memref sig .tc .vmem S1x3x256 .f32) (harg2 : arg2.IsWhole) (arg3 : Memref sig .tc .vmem S1x3x8192 .f32) (harg3 : arg3.IsWhole) (arg4 : Memref sig .tc .vmem S1x1x256 .f32) (harg4 : arg4.IsWhole) (arg5 : Memref sig .tc .vmem S1x1x8192 .f32) (harg5 : arg5.IsWhole) (hc0 : ¬cond0_0 i)
    (x0 : Vec F S1x3x256 .f32) (x1 : Vec F S1x3x8192 .f32) (xo3 : Vec F S1x1x8192 .f32) :
    out0_B_2 c i arg2 harg2 arg3 harg3 arg4 harg4 arg5 harg5 hc0 x0 x1 xo3 = k0_pay3 x0 x1 := by
  unfold out0_B_2
  rw [View.read_writes_eq_canon _ _ _ (cover0_B_2 c i arg2 harg2 arg3 harg3 arg4 harg4 arg5 harg5 hc0 x0 x1 xo3)]
  unfold kernelRun0_B
  dsimp only
  rw [View.canon_unit_zero zero3]
  simp only [View.readAt_eq_ld, harg2.read_unread, harg3.read_unread, View.ld_unit_zero (S := S1x3x256) zero3,
    View.ld_unit_zero (S := S1x3x8192) zero3]

/-- A later tile: the column block is the fold step applied to what the block held. -/
theorem later_col (c : Dev nD) (i : grid0.Coords) (arg2 : Memref sig .tc .vmem S1x3x256 .f32) (harg2 : arg2.IsWhole) (arg3 : Memref sig .tc .vmem S1x3x8192 .f32) (harg3 : arg3.IsWhole) (arg4 : Memref sig .tc .vmem S1x1x256 .f32) (harg4 : arg4.IsWhole) (arg5 : Memref sig .tc .vmem S1x1x8192 .f32) (harg5 : arg5.IsWhole) (hc0 : ¬cond0_0 i)
    (x0 : Vec F S1x3x256 .f32) (x1 : Vec F S1x3x8192 .f32) (xo3 : Vec F S1x1x8192 .f32) :
    out0_B_3 c i arg2 harg2 arg3 harg3 arg4 harg4 arg5 harg5 hc0 x0 x1 xo3 = k0_pay4 x0 x1 xo3 := by
  unfold out0_B_3
  rw [View.read_writes_eq_canon _ _ _ (cover0_B_3 c i arg2 harg2 arg3 harg3 arg4 harg4 arg5 harg5 hc0 x0 x1 xo3)]
  unfold kernelRun0_B
  dsimp only
  sl_unfold_words
  rw [View.canon_unit_zero zero3]
  simp only [View.readAt_eq_ld, harg2.read_unread, harg3.read_unread, harg5.read_unread,
    View.ld_unit_zero (S := S1x3x256) zero3, View.ld_unit_zero (S := S1x3x8192) zero3,
    View.ld_unit_zero (S := S1x1x8192) zero3]

end Cert.Chamfer.Pieces

end
-- ==== Proof.PointValues.lean ====
/-
  What the two output blocks hold after each grid point, as values of that point's input blocks: the row block is
  the tile rows' minima; the column block is the fold step applied to +∞ at the first tile of a batch entry and to
  what the previous point left at every later tile.
-/
import proofs.«163247_j76802605187598_2_alg».proof.Proof.Pieces

noncomputable section

namespace Cert.Chamfer.Pieces

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- After any point the row block holds the tile rows' minima of that point's input blocks. -/
theorem rowAt (c : Dev nD) (t : Fin cfg0.N) :
    (outsAt0 m c t.val t.isLt).1 = k0_pay3 (iblk m c 0 t) (iblk m c 1 t) := by
  by_cases h0 : t.val % 32 = 0
  · rw [outsAt0_A m c t h0]
    dsimp only
    exact first_row (F := F) c (grid0.coords t) (ms0_0 t) (hs0_0 t) (ms0_1 t) (hs0_1 t) (ms0_2 t) (hs0_2 t) (ms0_3 t) (hs0_3 t) ((hcond0_0 t).mpr h0) (iblk m c 0 t) (iblk m c 1 t)
  · rw [outsAt0_B m c t h0]
    dsimp only
    exact later_row (F := F) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2

/-- After the first tile of a batch entry the column block holds the fold step applied to +∞. -/
theorem colAt_first (c : Dev nD) (t : Fin cfg0.N) (h0 : t.val % 32 = 0) :
    (outsAt0 m c t.val t.isLt).2 = k0_pay4 (iblk m c 0 t) (iblk m c 1 t) (k0_pay1 (F := F)) := by
  rw [outsAt0_A m c t h0]
  dsimp only
  exact first_col (F := F) c (grid0.coords t) (ms0_0 t) (hs0_0 t) (ms0_1 t) (hs0_1 t) (ms0_2 t) (hs0_2 t) (ms0_3 t) (hs0_3 t) ((hcond0_0 t).mpr h0) (iblk m c 0 t) (iblk m c 1 t)

/-- After a later tile it holds the fold step applied to what the previous point left. -/
theorem colAt_later (c : Dev nD) (t : Fin cfg0.N) (h0 : ¬t.val % 32 = 0) :
    (outsAt0 m c t.val t.isLt).2 = k0_pay4 (iblk m c 0 t) (iblk m c 1 t)
      (outsAt0 m c (t.val - 1) (Nat.lt_of_le_of_lt (Nat.sub_le _ _) t.isLt)).2 := by
  rw [outsAt0_B m c t h0]
  dsimp only
  exact later_col (F := F) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).2

end Cert.Chamfer.Pieces

end
-- ==== Proof.Blocks.lean ====
/-
  The kernel's input blocks, read back in the coordinates of the two clouds.

  Before the kernel runs the program swaps the last two axes of each cloud ([4, 8192, 3] becomes [4, 3, 8192]). The
  grid has 4 × 32 points, numbered t = 32·b + j: batch entry b = t / 32, tile j = t mod 32. At point t the first
  input block is the tile of 256 points 256·j … 256·j + 255 of the first cloud's batch entry b, and the second input
  block is the whole second cloud of batch entry b. So the squared-distance table the body forms at point t, at
  (r, m), is the distance between point 256·j + r of the first cloud and point m of the second, in batch entry b.
-/
import proofs.«163247_j76802605187598_2_alg».proof.Proof.Gen.KernelIdeal.Frame
import proofs.«163247_j76802605187598_2_alg».proof.Proof.Spec
import proofs.«163247_j76802605187598_2_alg».proof.Proof.Payload
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.Chamfer.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ)

/-- The two clouds as the program is launched with them. -/
abbrev cloudP (c : Dev nD) : Cloud := m ((c : Thread nD τ).loc main_arg0)
abbrev cloudQ (c : Dev nD) : Cloud := m ((c : Thread nD τ).loc main_arg1)

/-- The array the first window stages is the first cloud with its last two axes swapped. -/
theorem staged0 (c : Dev nD) :
    (V m c main_v0 : S4x3x8192.Idx → EReal)
      = transpose S4x3x8192 [0, 2, 1] (cloudP m c) transposes_S4x8192x3_S4x3x8192_0_2_1 := by
  show StableHlo.after hostOps0 (fun b => m (c, b)) (Proc.devRef .tc main_v0) = _
  after_results

/-- The array the second window stages is the second cloud with its last two axes swapped. -/
theorem staged1 (c : Dev nD) :
    (V m c main_v1 : S4x3x8192.Idx → EReal)
      = transpose S4x3x8192 [0, 2, 1] (cloudQ m c) transposes_S4x8192x3_S4x3x8192_0_2_1 := by
  show StableHlo.after hostOps0 (fun b => m (c, b)) (Proc.devRef .tc main_v1) = _
  after_results

/-- Where the four windows' blocks sit at point `t`: the tiled windows (first input, row table) at batch entry
    t / 32 and tile t mod 32; the resident ones (second input, column table) at batch entry t / 32. -/
theorem block_index : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = t.val % 32
    ∧ win0_3.index t (0 : Fin 3) = t.val / 32 ∧ win0_3.index t (1 : Fin 3) = 0 ∧ win0_3.index t (2 : Fin 3) = 0 :=
  (by decide +kernel : ∀ t : Fin grid0.N, _)

/-- The first input block at point `t`, at coordinate k of tile row r: coordinate k of point 256·(t mod 32) + r of the
    first cloud's batch entry t / 32. -/
theorem tile_block (c : Dev nD) (t : Fin cfg0.N) (u : Fin 1) (k : Fin 3) (r : Fin 256) (b : Fin 4) (n : Fin 8192)
    (hb : b.val = t.val / 32) (hn : n.val = t.val % 32 * 256 + r.val) :
    (iblk m c 0 t : Vec Ideal S1x3x256 .f32) (ix3 u k r) = cloudP m c (ix3 b n k) := by
  obtain ⟨e0, e1, e2, -⟩ := block_index t
  unfold iblk
  rw [View.read_apply]
  show V m c main_v0 (((cfg0.win 0).blk t).view.emb (ix3 u k r)) = _
  rw [staged0]
  have e : ((cfg0.win 0).blk t).view.emb (ix3 u k r) = ix3 b k n := by
    funext a; apply Fin.ext
    match a with
    | ⟨0, _⟩ => show win0_0.index t (0 : Fin 3) * 1 + 1 * u.val = b.val; have := u.isLt; omega
    | ⟨1, _⟩ => show win0_0.index t (1 : Fin 3) * 3 + 1 * k.val = k.val; omega
    | ⟨2, _⟩ => show win0_0.index t (2 : Fin 3) * 256 + 1 * r.val = n.val; omega
  rw [e]
  exact transpose_ix3_021_apply _ _ b k n

/-- The second input block at point `t`, at coordinate k of point p: coordinate k of point p of the second cloud's
    batch entry t / 32. -/
theorem resident_block (c : Dev nD) (t : Fin cfg0.N) (u : Fin 1) (k : Fin 3) (p : Fin 8192) (b : Fin 4)
    (hb : b.val = t.val / 32) :
    (iblk m c 1 t : Vec Ideal S1x3x8192 .f32) (ix3 u k p) = cloudQ m c (ix3 b p k) := by
  obtain ⟨-, -, -, e0, e1, e2, -⟩ := block_index t
  unfold iblk
  rw [View.read_apply]
  show V m c main_v1 (((cfg0.win 1).blk t).view.emb (ix3 u k p)) = _
  rw [staged1]
  have e : ((cfg0.win 1).blk t).view.emb (ix3 u k p) = ix3 b k p := by
    funext a; apply Fin.ext
    match a with
    | ⟨0, _⟩ => show win0_1.index t (0 : Fin 3) * 1 + 1 * u.val = b.val; have := u.isLt; omega
    | ⟨1, _⟩ => show win0_1.index t (1 : Fin 3) * 3 + 1 * k.val = k.val; omega
    | ⟨2, _⟩ => show win0_1.index t (2 : Fin 3) * 8192 + 1 * p.val = p.val; omega
  rw [e]
  exact transpose_ix3_021_apply _ _ b k p

/-- The table the body forms at point `t` is the squared distance between the two clouds' points. -/
theorem tile_eq_dist (c : Dev nD) (t : Fin cfg0.N) (r : Fin 256) (p : Fin 8192) (b : Fin 4) (n : Fin 8192)
    (hb : b.val = t.val / 32) (hn : n.val = t.val % 32 * 256 + r.val) :
    Payload.tile (iblk m c 0 t) (iblk m c 1 t) r p = dist (cloudP m c) (cloudQ m c) b n p := by
  unfold Payload.tile dist sq inner
  refine congrArg₂ (fun x y : EReal => x - two32 * y)
    (congrArg₂ (fun x y : EReal => x + y) (Finset.sum_congr rfl fun k _ => ?_) (Finset.sum_congr rfl fun k _ => ?_))
    (Finset.sum_congr rfl fun k _ => ?_)
  · rw [tile_block m c t 0 k r b n hb hn]
  · rw [resident_block m c t 0 k p b hb]
  · rw [tile_block m c t 0 k r b n hb hn, resident_block m c t 0 k p b hb]

end Cert.Chamfer.Blocks

end
-- ==== Proof.ColumnFold.lean ====
/-
  The running column minimum, by its lower bounds.

  Within a batch entry b the grid visits the 32 tiles of the first cloud in order. After tile j the column table's
  block holds, at point p of the second cloud, a value whose lower bounds are exactly: the numbers below +∞ and
  below the squared distance from p to each of the first 256·(j + 1) points of the first cloud. The first tile starts
  from the +∞ block; each later tile takes the minimum of what the previous one left and its own 256 rows.
-/
import proofs.«163247_j76802605187598_2_alg».proof.Proof.Gen.KernelIdeal.Frame
import proofs.«163247_j76802605187598_2_alg».proof.Proof.Spec
import proofs.«163247_j76802605187598_2_alg».proof.Proof.Payload
import proofs.«163247_j76802605187598_2_alg».proof.Proof.PointValues
import proofs.«163247_j76802605187598_2_alg».proof.Proof.Blocks

noncomputable section

namespace Cert.Chamfer.ColumnFold

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.Chamfer.Blocks

variable (m : (ℓ : Loc nD τ sig) → Buf (Elt Ideal) ℓ)

/-- One fold step at point `t`, by lower bounds: below the new value = below the old one, below +∞, and below the
    distance from p to each of the tile's 256 points. -/
theorem step_bounds (c : Dev nD) (t : Fin cfg0.N) (v : Fin 1) (p : Fin 8192) (x : EReal) (b : Fin 4)
    (hb : b.val = t.val / 32) (acc : Vec Ideal S1x1x8192 .f32) :
    x ≤ k0_pay4 (iblk m c 0 t) (iblk m c 1 t) acc (ix3 (0 : Fin 1) v p)
      ↔ x ≤ acc (ix3 (0 : Fin 1) v p)
        ∧ (x ≤ inf32 ∧ ∀ r : Fin 256, x ≤ dist (cloudP m c) (cloudQ m c) b
            ⟨t.val % 32 * 256 + r.val, by have := r.isLt; omega⟩ p) := by
  rw [Payload.colPiece_apply (iblk m c 0 t) (iblk m c 1 t) acc 0 v p, le_min_iff, le_fold_min_univ]
  refine and_congr Iff.rfl (and_congr Iff.rfl (forall_congr' fun r => ?_))
  rw [tile_eq_dist m c t r p b ⟨t.val % 32 * 256 + r.val, by have := r.isLt; omega⟩ hb rfl]

/-- THE FOLD: after point `n` (tile n mod 32 of batch entry n / 32) the column block's lower bounds at p are those of
    +∞ and of the distances to the first 256·(n mod 32 + 1) points of the first cloud. -/
theorem col_bounds (c : Dev nD) (v : Fin 1) (p : Fin 8192) (x : EReal) :
    ∀ (n : ℕ) (hn : n < cfg0.N) (b : Fin 4), b.val = n / 32 →
      (x ≤ (outsAt0 m c n hn).2 (ix3 (0 : Fin 1) v p)
        ↔ x ≤ inf32 ∧ ∀ q : Fin 8192, q.val < (n % 32 + 1) * 256 →
            x ≤ dist (cloudP m c) (cloudQ m c) b q p) := by
  intro n
  induction n with
  | zero =>
    intro hn b hb
    have e := congrFun (Pieces.colAt_first m c ⟨0, hn⟩ rfl) (ix3 (0 : Fin 1) v p)
    refine (iff_of_eq (congrArg (x ≤ ·) e)).trans ?_
    refine (step_bounds m c ⟨0, hn⟩ v p x b hb _).trans ?_
    rw [Payload.reset_apply 0 v p]
    have key := forall_lt_next_tile (fun q => x ≤ dist (cloudP m c) (cloudQ m c) b q p) 0 (by omega)
    constructor
    · rintro ⟨h1, -, h3⟩
      exact ⟨h1, key.mpr ⟨fun q hq => absurd hq (by omega), h3⟩⟩
    · rintro ⟨h1, h2⟩
      exact ⟨h1, h1, (key.mp h2).2⟩
  | succ k ih =>
    intro hn b hb
    have hN : k + 1 < 128 := lt_of_lt_of_eq hn (show cfg0.N = 128 from N_0)
    by_cases h0 : (k + 1) % 32 = 0
    · have e := congrFun (Pieces.colAt_first m c ⟨k + 1, hn⟩ h0) (ix3 (0 : Fin 1) v p)
      refine (iff_of_eq (congrArg (x ≤ ·) e)).trans ?_
      refine (step_bounds m c ⟨k + 1, hn⟩ v p x b hb _).trans ?_
      rw [Payload.reset_apply 0 v p]
      have key := forall_lt_next_tile (fun q => x ≤ dist (cloudP m c) (cloudQ m c) b q p) ((k + 1) % 32) (by omega)
      constructor
      · rintro ⟨h1, -, h3⟩
        exact ⟨h1, key.mpr ⟨fun q hq => absurd hq (by rw [h0]; omega), h3⟩⟩
      · rintro ⟨h1, h2⟩
        exact ⟨h1, h1, (key.mp h2).2⟩
    · have e := congrFun (Pieces.colAt_later m c ⟨k + 1, hn⟩ h0) (ix3 (0 : Fin 1) v p)
      refine (iff_of_eq (congrArg (x ≤ ·) e)).trans ?_
      refine (step_bounds m c ⟨k + 1, hn⟩ v p x b hb _).trans ?_
      have ihk := ih (Nat.lt_of_succ_lt hn) b (by rw [hb]; omega)
      have key := forall_lt_next_tile (fun q => x ≤ dist (cloudP m c) (cloudQ m c) b q p) ((k + 1) % 32) (by omega)
      have hk : k % 32 + 1 = (k + 1) % 32 := by omega
      rw [hk] at ihk
      constructor
      · rintro ⟨h1, h2, h3⟩
        have h1' := ihk.mp h1
        exact ⟨h2, key.mpr ⟨h1'.2, h3⟩⟩
      · rintro ⟨h1, h2⟩
        have h2' := key.mp h2
        exact ⟨ihk.mpr ⟨h1, h2'.1⟩, h1, h2'.2⟩

end Cert.Chamfer.ColumnFold

end
-- ==== Proof.KernelValue.lean ====
/-
  What the kernel program computes: its two output arrays after the grid, and its result.

  The row table's blocks tile its array, one block per grid point, and each block is the row minima of its tile: the
  array ends as the row table. The column table's block of batch entry b is written back once, after the entry's
  last tile, holding the fold over all 32 tiles: by its lower bounds that is the minimum over all 8192 points, so the
  array ends as the column table. The program then reshapes both arrays to [4, 8192] and applies the common tail.
-/
import proofs.«163247_j76802605187598_2_alg».proof.Proof.Gen.KernelIdeal.Frame
import proofs.«163247_j76802605187598_2_alg».proof.Proof.Spec
import proofs.«163247_j76802605187598_2_alg».proof.Proof.Payload
import proofs.«163247_j76802605187598_2_alg».proof.Proof.PointValues
import proofs.«163247_j76802605187598_2_alg».proof.Proof.Blocks
import proofs.«163247_j76802605187598_2_alg».proof.Proof.ColumnFold
import Idealize.ShloMosaic.Lib.Pipeline.Value
import Idealize.ShloMosaic.Lib.ValueIdx
import Idealize.ShloMosaic.Lib.StableHlo.Run

noncomputable section

namespace Cert.Chamfer.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.Chamfer.Blocks

variable (m : (ℓ : Loc nD τ sig) → Buf (Elt Ideal) ℓ) (ρ : Dev nD → PrngReg)

/-- The two tables laid out as the kernel's output arrays, [4, 1, 8192]. -/
def rowArr (P Q : Cloud) : S4x1x8192.Idx → EReal :=
  fun i => rowMinAt P Q ⟨(i 0).val, (i 0).isLt⟩ ⟨(i 2).val, (i 2).isLt⟩
def colArr (P Q : Cloud) : S4x1x8192.Idx → EReal :=
  fun i => colMinAt P Q ⟨(i 0).val, (i 0).isLt⟩ ⟨(i 2).val, (i 2).isLt⟩

/-- The column layout read at an index whose batch entry and point are named. -/
theorem colArr_apply (P Q : Cloud) (i : S4x1x8192.Idx) (b : Fin 4) (p : Fin 8192) (hb : b.val = (i 0).val)
    (hp : p.val = (i 2).val) : colArr P Q i = colMinAt P Q b p := by
  obtain rfl : b = ⟨(i 0).val, (i 0).isLt⟩ := Fin.ext hb
  obtain rfl : p = ⟨(i 2).val, (i 2).isLt⟩ := Fin.ext hp
  rfl

/-- What point `t` writes back to the row table: its block of the row table. -/
theorem flushed_row (c : Dev nD) (t : Fin cfg0.N) :
    (dats m 0 c).flushed 2 t
      = ((cfg0.win 2).blk t).view.read (Elt Ideal) (rowArr (cloudP m c) (cloudQ m c)) := by
  obtain ⟨-, -, -, -, -, -, e0, e1, e2, -⟩ := block_index t
  have hN : t.val < 128 := lt_of_lt_of_eq t.isLt (show cfg0.N = 128 from N_0)
  show (cfg0.win 2).cut (grid0.coords t) ((dats m 0 c).after 2 t) = _
  rw [after0_2, Pieces.rowAt]
  funext y
  have hy0 : (y 0).val < 1 := (y 0).isLt
  have hy1 : (y 1).val < 1 := (y 1).isLt
  have hy2 : (y 2).val < 256 := (y 2).isLt
  show k0_pay3 (iblk m c 0 t) (iblk m c 1 t) ((cfg0.win 2).xinj (grid0.coords t) y)
    = rowArr (cloudP m c) (cloudQ m c) (((cfg0.win 2).blk t).view.emb y)
  have e : (cfg0.win 2).xinj (grid0.coords t) y
      = ix3 (⟨(y 0).val, hy0⟩ : Fin 1) (⟨(y 1).val, hy1⟩ : Fin 1) (⟨(y 2).val, hy2⟩ : Fin 256) :=
    funext fun a => Fin.ext (by match a with | ⟨0, _⟩ => rfl | ⟨1, _⟩ => rfl | ⟨2, _⟩ => rfl)
  refine (congrArg (k0_pay3 (iblk m c 0 t) (iblk m c 1 t)) e).trans ?_
  refine (Payload.rowPiece_apply (iblk m c 0 t) (iblk m c 1 t) _ _ _).trans ?_
  unfold rowArr rowMinAt
  refine congrArg (fun f => (Finset.univ : Finset (Fin 8192)).fold min inf32 f) (funext fun p => ?_)
  exact tile_eq_dist m c t _ p _ _
    (by show win0_2.index t (0 : Fin 3) * 1 + 1 * (y 0).val = t.val / 32; omega)
    (by show win0_2.index t (2 : Fin 3) * 256 + 1 * (y 2).val = t.val % 32 * 256 + (y 2).val; omega)

/-- What the last tile of a batch entry writes back to the column table: its block of the column table. -/
theorem flushed_col (c : Dev nD) (t : Fin cfg0.N) (hf : (cfg0.win 3).flush t = true) :
    (dats m 0 c).flushed 3 t
      = ((cfg0.win 3).blk t).view.read (Elt Ideal) (colArr (cloudP m c) (cloudQ m c)) := by
  obtain ⟨-, -, -, -, -, -, -, -, -, e0, e1, e2⟩ := block_index t
  have h31 : t.val % 32 = 31 := (flush0_3 t).mp hf
  have hN : t.val < 128 := lt_of_lt_of_eq t.isLt (show cfg0.N = 128 from N_0)
  show (cfg0.win 3).cut (grid0.coords t) ((dats m 0 c).after 3 t) = _
  rw [after0_3]
  funext y
  have hy0 : (y 0).val < 1 := (y 0).isLt
  have hy1 : (y 1).val < 1 := (y 1).isLt
  have hy2 : (y 2).val < 8192 := (y 2).isLt
  show (outsAt0 m c t.val t.isLt).2 ((cfg0.win 3).xinj (grid0.coords t) y)
    = colArr (cloudP m c) (cloudQ m c) (((cfg0.win 3).blk t).view.emb y)
  have e : (cfg0.win 3).xinj (grid0.coords t) y
      = ix3 (0 : Fin 1) (⟨(y 1).val, hy1⟩ : Fin 1) (⟨(y 2).val, hy2⟩ : Fin 8192) :=
    funext fun a => Fin.ext (by
      match a with
      | ⟨0, _⟩ => show (y 0).val = 0; omega
      | ⟨1, _⟩ => rfl
      | ⟨2, _⟩ => rfl)
  refine (congrArg (outsAt0 m c t.val t.isLt).2 e).trans ?_
  refine Eq.trans ?_ (colArr_apply (cloudP m c) (cloudQ m c) (((cfg0.win 3).blk t).view.emb y)
    ⟨t.val / 32, by omega⟩ ⟨(y 2).val, hy2⟩
    (by show t.val / 32 = win0_3.index t (0 : Fin 3) * 1 + 1 * (y 0).val; omega)
    (by show (y 2).val = win0_3.index t (2 : Fin 3) * 8192 + 1 * (y 2).val; omega)).symm
  refine eq_colMinAt_of_le_iff _ _ _ _ _ fun x => ?_
  refine (ColumnFold.col_bounds m c ⟨(y 1).val, hy1⟩ ⟨(y 2).val, hy2⟩ x t.val t.isLt ⟨t.val / 32, by omega⟩ rfl).trans ?_
  rw [h31]
  refine and_congr Iff.rfl ⟨fun h q => ?_, fun h q _ => ?_⟩
  · refine (h ⟨q.val, q.isLt⟩ (by have := q.isLt; show q.val < (31 + 1) * 256; omega))
  · exact h q

/-- An index of the row table's array lies in point `t`'s block when each coordinate lies in the block's range. -/
theorem mem_row_block (t : Fin cfg0.N) (i : S4x1x8192.Idx) :
    i ∈ ((cfg0.win 2).blk t).view.set
      ↔ ∀ a : Fin 3, win0_2.index t a * S1x1x256.size a ≤ (i a).val
          ∧ (i a).val < win0_2.index t a * S1x1x256.size a + S1x1x256.size a := by
  show i ∈ ((View.whole main_v2_0).slice (win0_2.rect t)).set ↔ _
  rw [View.set_slice_whole, Rect.mem_set_unit]
  exact Iff.rfl

theorem mem_col_block (t : Fin cfg0.N) (i : S4x1x8192.Idx) :
    i ∈ ((cfg0.win 3).blk t).view.set
      ↔ ∀ a : Fin 3, win0_3.index t a * S1x1x8192.size a ≤ (i a).val
          ∧ (i a).val < win0_3.index t a * S1x1x8192.size a + S1x1x8192.size a := by
  show i ∈ ((View.whole main_v2_1).slice (win0_3.rect t)).set ↔ _
  rw [View.set_slice_whole, Rect.mem_set_unit]
  exact Iff.rfl

/-- Every entry of the row table's array is in the block of the point of its batch entry and tile. -/
theorem row_cover (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hN : cfg0.N = 128 := N_0
  have ht : (i 0).val * 32 + (i 2).val / 256 < cfg0.N := by rw [hN]; omega
  obtain ⟨-, -, -, -, -, -, e0, e1, e2, -⟩ := block_index ⟨(i 0).val * 32 + (i 2).val / 256, ht⟩
  refine ⟨⟨(i 0).val * 32 + (i 2).val / 256, ht⟩, flush0_2 _, (mem_row_block _ i).mpr fun a => ?_⟩
  dsimp only at e0 e1 e2
  match a with
  | ⟨0, _⟩ =>
    show win0_2.index ⟨(i 0).val * 32 + (i 2).val / 256, ht⟩ (0 : Fin 3) * 1 ≤ (i 0).val
      ∧ (i 0).val < win0_2.index ⟨(i 0).val * 32 + (i 2).val / 256, ht⟩ (0 : Fin 3) * 1 + 1
    omega
  | ⟨1, _⟩ =>
    show win0_2.index ⟨(i 0).val * 32 + (i 2).val / 256, ht⟩ (1 : Fin 3) * 1 ≤ (i 1).val
      ∧ (i 1).val < win0_2.index ⟨(i 0).val * 32 + (i 2).val / 256, ht⟩ (1 : Fin 3) * 1 + 1
    omega
  | ⟨2, _⟩ =>
    show win0_2.index ⟨(i 0).val * 32 + (i 2).val / 256, ht⟩ (2 : Fin 3) * 256 ≤ (i 2).val
      ∧ (i 2).val < win0_2.index ⟨(i 0).val * 32 + (i 2).val / 256, ht⟩ (2 : Fin 3) * 256 + 256
    omega

/-- Every entry of the column table's array is in the block written back after its batch entry's last tile. -/
theorem col_cover (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 128 := N_0
  have ht : (i 0).val * 32 + 31 < cfg0.N := by rw [hN]; omega
  obtain ⟨-, -, -, -, -, -, -, -, -, e0, e1, e2⟩ := block_index ⟨(i 0).val * 32 + 31, ht⟩
  refine ⟨⟨(i 0).val * 32 + 31, ht⟩, (flush0_3 _).mpr (by show ((i 0).val * 32 + 31) % 32 = 31; omega),
    (mem_col_block _ i).mpr fun a => ?_⟩
  dsimp only at e0 e1 e2
  match a with
  | ⟨0, _⟩ =>
    show win0_3.index ⟨(i 0).val * 32 + 31, ht⟩ (0 : Fin 3) * 1 ≤ (i 0).val
      ∧ (i 0).val < win0_3.index ⟨(i 0).val * 32 + 31, ht⟩ (0 : Fin 3) * 1 + 1
    omega
  | ⟨1, _⟩ =>
    show win0_3.index ⟨(i 0).val * 32 + 31, ht⟩ (1 : Fin 3) * 1 ≤ (i 1).val
      ∧ (i 1).val < win0_3.index ⟨(i 0).val * 32 + 31, ht⟩ (1 : Fin 3) * 1 + 1
    omega
  | ⟨2, _⟩ =>
    show win0_3.index ⟨(i 0).val * 32 + 31, ht⟩ (2 : Fin 3) * 8192 ≤ (i 2).val
      ∧ (i 2).val < win0_3.index ⟨(i 0).val * 32 + 31, ht⟩ (2 : Fin 3) * 8192 + 8192
    omega

/-- After the grid the first output array is the row table … -/
theorem final_row (c : Dev nD) : (dats m 0 c).arrAt 2 cfg0.N = rowArr (cloudP m c) (cloudQ m c) :=
  (dats m 0 c).arrAt_eq_of_cover 2 (rowArr (cloudP m c) (cloudQ m c)) (fun t _ => flushed_row m c t) row_cover

/-- … and the second the column table. -/
theorem final_col (c : Dev nD) : (dats m 0 c).arrAt 3 cfg0.N = colArr (cloudP m c) (cloudQ m c) :=
  (dats m 0 c).arrAt_eq_of_cover 3 (colArr (cloudP m c) (cloudQ m c)) (flushed_col m c) col_cover

/-- Dropping the unit middle axis of a [4, 1, 8192] layout gives the [4, 8192] table. -/
theorem squeeze_row (P Q : Cloud) :
    shapeCast S4x8192 (rowArr P Q) shapeCasts_S4x1x8192_S4x8192 = rowMin P Q := by
  funext i
  obtain ⟨b, n, rfl⟩ : ∃ (b : Fin 4) (n : Fin 8192), i = ix2 b n := ⟨i 0, i 1, eq_ix2 i⟩
  refine (shapeCast_apply (rowArr P Q) shapeCasts_S4x1x8192_S4x8192 (ix2 b n) (ix3 b (0 : Fin 1) n) (by
    rw [Shape.rowMajor_val_three, Shape.rowMajor_val_two]
    show (b.val * 1 + 0) * 8192 + n.val = b.val * 8192 + n.val
    omega)).trans ?_
  rfl

theorem squeeze_col (P Q : Cloud) :
    shapeCast S4x8192 (colArr P Q) shapeCasts_S4x1x8192_S4x8192 = colMin P Q := by
  funext i
  obtain ⟨b, n, rfl⟩ : ∃ (b : Fin 4) (n : Fin 8192), i = ix2 b n := ⟨i 0, i 1, eq_ix2 i⟩
  refine (shapeCast_apply (colArr P Q) shapeCasts_S4x1x8192_S4x8192 (ix2 b n) (ix3 b (0 : Fin 1) n) (by
    rw [Shape.rowMajor_val_three, Shape.rowMajor_val_two]
    show (b.val * 1 + 0) * 8192 + n.val = b.val * 8192 + n.val
    omega)).trans ?_
  rfl

/-- The program's result: the common tail of the two tables. -/
theorem result_eq (c : Dev nD) :
    Pipeline.afterTail₀ cfgs (dats m) 0 (V0 m) [hostOps1] c main_v15
      = tail (F := Ideal) reducesTo_S4x8192_S4_d1 h_S_ bcast_S_S4 reducesTo_S4_S_d0
          (rowMin (cloudP m c) (cloudQ m c)) (colMin (cloudP m c) (cloudQ m c)) := by
  unfold Pipeline.afterTail₀
  show StableHlo.after hostOps1 _ (Proc.devRef .tc main_v15) = _
  after_results
  have h2 : Pipeline.withArrays (cfgs 0).spec c (V0 m c) (fun w => (dats m 0 c).arrAt w (cfgs 0).N)
      (Proc.devRef .tc main_v2_0) = rowArr (cloudP m c) (cloudQ m c) :=
    (Pipeline.withArrays_arr spec0 launch0.win.arr_inj c _ _ 2).trans (final_row m c)
  have h3 : Pipeline.withArrays (cfgs 0).spec c (V0 m c) (fun w => (dats m 0 c).arrAt w (cfgs 0).N)
      (Proc.devRef .tc main_v2_1) = colArr (cloudP m c) (cloudQ m c) :=
    (Pipeline.withArrays_arr spec0 launch0.win.arr_inj c _ _ 3).trans (final_col m c)
  refine Eq.trans (b := tail (F := Ideal) reducesTo_S4x8192_S4_d1 h_S_ bcast_S_S4 reducesTo_S4_S_d0
    (shapeCast S4x8192 (Pipeline.withArrays (cfgs 0).spec c (V0 m c) (fun w => (dats m 0 c).arrAt w (cfgs 0).N)
      (Proc.devRef .tc main_v2_0)) shapeCasts_S4x1x8192_S4x8192)
    (shapeCast S4x8192 (Pipeline.withArrays (cfgs 0).spec c (V0 m c) (fun w => (dats m 0 c).arrAt w (cfgs 0).N)
      (Proc.devRef .tc main_v2_1)) shapeCasts_S4x1x8192_S4x8192)) rfl ?_
  rw [h2, h3, squeeze_row, squeeze_col]

/-- THE KERNEL PROGRAM'S RUN, READ: every weakly fair execution terminates with the result at the common tail of the two
    nearest-neighbour tables of the clouds it was launched with, and the clouds unchanged. -/
theorem run : θ_run defs (onTc (τ := τ) (main (F := Ideal))) ⟨m, fun _ => 0, ρ⟩ fun r => ∀ c : Dev nD,
      r.2.mem ((c : Thread nD τ).loc main_v15)
        = tail (F := Ideal) reducesTo_S4x8192_S4_d1 h_S_ bcast_S_S4 reducesTo_S4_S_d0
            (rowMin (cloudP m c) (cloudQ m c)) (colMin (cloudP m c) (cloudQ m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Chamfer.KernelValue

end
-- ==== Proof.Reference.lean ====
/-
  What the reference program computes, in the same words: its table of squared distances is `dist`, its two
  minimum-reductions are the row and the column table, and what it does with them is the common tail.
-/
import proofs.«163247_j76802605187598_2_alg».proof.Proof.Gen.ReferenceIdeal.Run
import proofs.«163247_j76802605187598_2_alg».proof.Proof.Gen.ReferenceIdeal.Read
import proofs.«163247_j76802605187598_2_alg».proof.Proof.Spec
import Idealize.ShloMosaic.PureOps.Ideal.Laws
import Idealize.ShloMosaic.PureOps.Reduce
import Idealize.ShloMosaic.Lib.ValueIdx

noncomputable section

open scoped BigOperators

namespace Cert.Chamfer.RefValue

open Idealize.ShloMosaic Idealize.ShloMosaic.TcCoe Idealize.SL.Sem Idealize.ShloMosaic.ValueIdx
open Cert.ReferenceIdeal Cert.ReferenceIdeal.Gen Cert.ReferenceIdeal.Read Cert.Chamfer

/-- The reference's [4, 8192, 8192] table at (b, n, p): the squared distance between point n of the first cloud and
    point p of the second. -/
theorem table_apply (P Q : Cloud) (b : Fin 4) (n p : Fin 8192) :
    val_main_v12 (F := Ideal) P Q (ix3 b n p) = dist P Q b n p := by
  have i1 : ∀ k : Fin 3, idx_main_v1 (idx_main_v5 (idx_main_v7 (ix3 b n p))) k = ix3 b n k := fun k =>
    funext fun a => Fin.ext (by match a with | ⟨0, _⟩ => rfl | ⟨1, _⟩ => rfl | ⟨2, _⟩ => rfl)
  have i3 : ∀ k : Fin 3, idx_main_v3 (idx_main_v6 (idx_main_v8 (ix3 b n p))) k = ix3 b p k := fun k =>
    funext fun a => Fin.ext (by match a with | ⟨0, _⟩ => rfl | ⟨1, _⟩ => rfl | ⟨2, _⟩ => rfl)
  have il : ∀ k : Fin 3, lidx_main_v4 (ix3 b n p) k = ix3 b n k := fun k =>
    funext fun a => Fin.ext (by match a with | ⟨0, _⟩ => rfl | ⟨1, _⟩ => rfl | ⟨2, _⟩ => rfl)
  have ir : ∀ k : Fin 3, ridx_main_v4 (ix3 b n p) k = ix3 b p k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_1_apply, val_main_cst_apply, val_main_cst_0_apply]
  simp only [val_main_v0_apply, val_main_v2_apply, i1, i3, il, ir, Ideal.subf_def, Ideal.addf_def, Ideal.mulf_def,
    Ideal.ofBits_def, Ideal.ofBits_zero_f32, zero_add]
  rfl

/-- The shape facts that name the index a minimum-reduction inserts: the last axis dropped, and the middle one. -/
theorem drop_last : S4x8192x8192.Reduces [2] S4x8192 := by decide
theorem drop_middle : S4x8192x8192.Reduces [1] S4x8192 := by decide

theorem rows_eq (P Q : Cloud) : val_main_v13 (F := Ideal) P Q = rowMin P Q := by
  funext i
  obtain ⟨b, n, rfl⟩ : ∃ (b : Fin 4) (n : Fin 8192), i = ix2 b n := ⟨i 0, i 1, eq_ix2 i⟩
  have key := Host.reduce_eq_fold_single (α := EReal) (s := S4x8192x8192) (t := S4x8192) (u := S_) (a := (2 : Fin 3))
    (FloatOps.minimumf (F := Ideal) (φ := .f32)) (val_main_v12 (F := Ideal) P Q) (val_main_cst_2 (F := Ideal))
    reducesTo_S4x8192x8192_S4x8192_d2 drop_last h_S_ (ix2 b n)
  unfold val_main_v13
  refine key.trans ?_
  show (Finset.univ : Finset (Fin 8192)).fold min inf32 _ = rowMinAt P Q b n
  unfold rowMinAt
  refine congrArg (fun f => (Finset.univ : Finset (Fin 8192)).fold min inf32 f) (funext fun p => ?_)
  have e : drop_last.lift (ix2 b n) p = ix3 b n p :=
    funext fun a => Fin.ext (by match a with | ⟨0, _⟩ => rfl | ⟨1, _⟩ => rfl | ⟨2, _⟩ => rfl)
  show val_main_v12 (F := Ideal) P Q (drop_last.lift (ix2 b n) p) = _
  rw [e]
  exact table_apply P Q b n p

theorem cols_eq (P Q : Cloud) : val_main_v14 (F := Ideal) P Q = colMin P Q := by
  funext i
  obtain ⟨b, p, rfl⟩ : ∃ (b : Fin 4) (p : Fin 8192), i = ix2 b p := ⟨i 0, i 1, eq_ix2 i⟩
  have key := Host.reduce_eq_fold_single (α := EReal) (s := S4x8192x8192) (t := S4x8192) (u := S_) (a := (1 : Fin 3))
    (FloatOps.minimumf (F := Ideal) (φ := .f32)) (val_main_v12 (F := Ideal) P Q) (val_main_cst_3 (F := Ideal))
    reducesTo_S4x8192x8192_S4x8192_d1 drop_middle h_S_ (ix2 b p)
  unfold val_main_v14
  refine key.trans ?_
  show (Finset.univ : Finset (Fin 8192)).fold min inf32 _ = colMinAt P Q b p
  unfold colMinAt
  refine congrArg (fun f => (Finset.univ : Finset (Fin 8192)).fold min inf32 f) (funext fun n => ?_)
  have e : drop_middle.lift (ix2 b p) n = ix3 b n p :=
    funext fun a => Fin.ext (by match a with | ⟨0, _⟩ => rfl | ⟨1, _⟩ => rfl | ⟨2, _⟩ => rfl)
  show val_main_v12 (F := Ideal) P Q (drop_middle.lift (ix2 b p) n) = _
  rw [e]
  exact table_apply P Q b n p

/-- The reference's result is the common tail of its two minimum-reductions. -/
theorem result_eq (P Q : Cloud) :
    val_main_v25 (F := Ideal) P Q
      = tail (F := Ideal) reducesTo_S4x8192_S4_d1 h_S_ bcast_S_S4 reducesTo_S4_S_d0 (rowMin P Q) (colMin P Q) := by
  rw [← rows_eq, ← cols_eq]
  rfl

end Cert.Chamfer.RefValue

end
-- ==== Proof.lean ====
/-
  Chamfer distance between two clouds of 8192 points in 3 coordinates, over a batch of 4: a tiled kernel against the
  plain array program.

  Both programs spell the squared distance between point n of the first cloud and point m of the second as
      (|P_n|² + |Q_m|²) − 2·⟨P_n, Q_m⟩,
  take for each point of one cloud the minimum over the other cloud (two tables, [4, 8192] each, every minimum folded
  from +∞), and end with the same arithmetic on the two tables: row means, their sum, the mean over the batch.

  The kernel walks a 4 × 32 grid: at point (b, j) it holds tile j of the first cloud (256 points) and the whole second
  cloud of batch entry b, forms the 256 × 8192 table of distances, writes each tile row's minimum into the row table,
  and folds each column's minimum over the tile into a running column minimum that starts at +∞ on the entry's first
  tile and is written back after its last. Over the extended reals sums commute and `min` is the lattice minimum, so
    · the three sums over the coordinates are the same sums whichever axis the coordinates lie on;
    · the row table's blocks tile it, and each block is the row minima of its tile;
    · the running column minimum after tile j has exactly the lower bounds "below +∞ and below the distance to each of
      the first 256·(j + 1) points", hence after the last tile it is the minimum over all 8192 points.
  No step needs the inputs to be finite: nothing is distributed or cancelled, both sides apply the same operations
  in the same grouping. The word-level kernel and its idealization are the same text, so there is nothing to preserve.
-/
import proofs.«163247_j76802605187598_2_alg».proof.Defs
import proofs.«163247_j76802605187598_2_alg».proof.Proof.Gen.Kernel
import proofs.«163247_j76802605187598_2_alg».proof.Proof.Gen.Kernel.Frame
import proofs.«163247_j76802605187598_2_alg».proof.Proof.Gen.KernelIdeal
import proofs.«163247_j76802605187598_2_alg».proof.Proof.Gen.KernelIdeal.Frame
import proofs.«163247_j76802605187598_2_alg».proof.Proof.Gen.ReferenceIdeal
import proofs.«163247_j76802605187598_2_alg».proof.Proof.Gen.Pre_finite_inputs
import proofs.«163247_j76802605187598_2_alg».proof.Proof.Gen.ReferenceIdeal.Run
import proofs.«163247_j76802605187598_2_alg».proof.Proof.Gen.ReferenceIdeal.Read
import proofs.«163247_j76802605187598_2_alg».proof.Proof.KernelValue
import proofs.«163247_j76802605187598_2_alg».proof.Proof.Reference

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common tail of the two nearest-neighbour tables of the clouds they were launched with;
    the clouds agree, so the results do. -/
theorem algebraic : Cert.algebraic_KernelIdeal_ReferenceIdeal := by
  intro m ρ m' ρ' _ hagree
  refine ⟨_, Cert.Chamfer.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.Chamfer.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
